-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 89
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .bf16⟩
  | .hbm, ⟨50, _⟩ => ⟨S850000x1, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .bf16⟩
  | .hbm, ⟨60, _⟩ => ⟨S850000x128, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x64, .bf16⟩
  | .hbm, ⟨69, _⟩ => ⟨S850000x1, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .bf16⟩
  | .hbm, ⟨79, _⟩ => ⟨S850000x64, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .bf16⟩
  | .local _ .vmem, ⟨10, _⟩ => ⟨S5000x64, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .bf16 = 32 ∨ (Rect.block (s := S50000x64) S5000x64.size (cc1_transform_3 i) (hinb1_3 i)).WholeWords (EltTy.packing .bf16)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S850000x1, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x64, .f32⟩
  | .hbm, ⟨73, _⟩ => ⟨S850000x1, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x64, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result named.

  @main is seven segments: three stretches of host operations, the first kernel region, a stretch, the second
  region, a last stretch. The contents of every buffer at each boundary are a fold from the launch memory; after the
  last stretch the thread holds every unscoped buffer at the last boundary's contents. The frame keeps of this only
  that the arguments end as launched; here the result buffer is read too: every weakly fair execution terminates with
  the result at the last boundary's contents of its buffer, the arguments unchanged.
-/
import proofs.«136348_j64527588655436_2_alg».proof.Proof.Gen.KernelIdeal.Frame

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    fold through the segments gives it and the argument arrays as launched. -/
theorem run_result : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Layers

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«136348_j64527588655436_2_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.FirstProduct.lean ====
/-
  The first dense layer, block by block and as a whole.

  The first kernel region walks the 50000 rows of `x` in ten blocks of 5000. At a block it multiplies the block's
  rows by the whole 128 × 128 weight matrix (into a zero accumulator) and writes the 5000 product rows back to the
  same rows of the result. Rows of a product are products of rows, so the result array ends holding the one
  product `x · W1`, entry (r, j) being the sum over k of x (r, k) · W1 (k, j). The narrowing casts around the
  product are the identity on the extended reals.
-/
import proofs.«136348_j64527588655436_2_alg».proof.Proof.Gen.KernelIdeal.Frame
import proofs.«136348_j64527588655436_2_alg».proof.Proof.LibRowsCols
import Idealize.ShloMosaic.Lib.Pipeline.Value
import Idealize.ShloMosaic.Lib.ValueIdx
import Idealize.ShloMosaic.PureOps.Ideal.Laws

set_option maxRecDepth 16384

noncomputable section

namespace Cert.KernelIdeal.Layers

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

theorem zeroOffsets : (![0, 0] : Fin 2 → Nat) = fun _ => 0 := funext fun a => by fin_cases a <;> rfl

/-- The first region's contraction record is "rows times columns": one contracted axis of extent 128, the left
    operand read at (row, k) and the right one at (k, column). -/
theorem firstRecord : RowsCols (R := 5000) (K := 128) (N := 128) dot_S5000x128_S128x128_S5000x128_1_0_0_1_n_n :=
  ⟨rfl, rfl, fun _ _ => rfl, fun _ _ => rfl, fun _ _ => rfl, fun _ _ => rfl⟩

/-- What the body stores, at an entry: the block of rows times the weights. -/
theorem firstPayload_apply (x0 : Vec Ideal S5000x128 .f32) (x1 : Vec Ideal S128x128 .f32) (j : S5000x128.Idx) :
    k0_pay1 (F := Ideal) x0 x1 j = rowsTimes (M := 5000) (K := 128) (N := 128) x0 x1 j :=
  matmul_zero_apply (φ₁ := .bf16) (φ₂ := .bf16) firstRecord none x0 x1 j

/-- How the three windows' block indices relate, decided once over the ten grid points: the rows of `x` and of the
    result move together, the weights stay, and there is one block of columns. -/
theorem firstIndexFacts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some grid point's. -/
theorem firstIndexOnto : ∀ q : Fin 10, ∃ t : Fin cfg0.N, win0_2.index t = ![q.val, 0] :=
  (by decide +kernel : ∀ q : Fin 10, ∃ t : Fin grid0.N, win0_2.index t = ![q.val, 0])

/-- The whole product the region computes, as one function of the arrays it finds. -/
abbrev firstProduct (c : Dev nD) : S50000x128.Idx → EReal :=
  rowsTimes (M := 50000) (K := 128) (N := 128) (V c main_arg0) (V c main_arg3)

/-- What grid point `t` writes back is block `t` of the whole product. -/
theorem firstFlushed (c : Dev nD) (t : Fin cfg0.N) :
    (dat0 V c).flushed 2 t = ((cfg0.win 2).blk t).view.read (Elt Ideal) (firstProduct V c) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨e0, e1, e2, e3, e4, e5⟩ := firstIndexFacts t
  funext j
  show k0_pay1 (F := Ideal) (iblk0 V c 0 t) (iblk0 V c 1 t) j = firstProduct V c (((cfg0.win 2).blk t).view.emb j)
  refine (firstPayload_apply (iblk0 V c 0 t) (iblk0 V c 1 t) j).trans ?_
  refine rowsTimes_of_rows (M := 50000) (R := 5000) (K := 128) (N := 128) (N' := 128) (V c main_arg0) (V c main_arg3)
    (iblk0 V c 0 t) (iblk0 V c 1 t) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k ((((cfg0.win 2).blk t).view.emb j) 1))
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range. -/
theorem firstMemBlock (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The ten row blocks tile the result: row `r` is in the block of the point whose block index is `r / 5000`. -/
theorem firstCover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := firstIndexOnto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [firstMemBlock]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region is the whole product of the arrays the region found. -/
theorem firstFinal (c : Dev nD) : (dat0 V c).arrAt 2 cfg0.N = firstProduct V c :=
  (dat0 V c).arrAt_eq_of_cover 2 (firstProduct V c) (fun t _ => firstFlushed V c t) firstCover

end Cert.KernelIdeal.Layers

end
-- ==== Proof.LibRowBias.lean ====
/-
  Rows plus a bias row, then the maximum with zero — general in the number of rows R and of columns K.

  For `a` of shape [R, K] and a bias kept as a one-row array `b` of shape [1, K], `hiddenRows a b` has at (r, k) the
  value `max (a (r, k) + b (0, k)) 0`, the zero spelt as the f32 word 0x00000000 (the same word wherever it is
  printed, never evaluated). The operation acts on each row by itself: `hiddenRows_congr` says that where a block
  `a'` holds at its row `p'` what `a` holds at row `p`, and the two bias rows agree, the two results agree at those
  rows. Nothing here needs the entries to be finite.
-/
import Idealize.ShloMosaic.PureOps.Ideal.Laws
import Idealize.ShloMosaic.Lib.ValueIdx

noncomputable section

namespace Cert.Dense

open Idealize.ShloMosaic Idealize.ShloMosaic.ValueIdx

/-- `max (a (r, k) + b (0, k)) 0` at every (r, k). -/
def hiddenRows {R K : Nat} (a : (⟨2, ![R, K]⟩ : Shape).Idx → EReal) (b : (⟨2, ![1, K]⟩ : Shape).Idx → EReal) :
    (⟨2, ![R, K]⟩ : Shape).Idx → EReal :=
  fun i => max (a i + b (ix2 (0 : Fin 1) (i 1 : Fin K))) (Ideal.ofBits .f32 0x00000000#32)

/-- Read at a row and a column. -/
theorem hiddenRows_apply {R K : Nat} (a : (⟨2, ![R, K]⟩ : Shape).Idx → EReal) (b : (⟨2, ![1, K]⟩ : Shape).Idx → EReal)
    (p : Fin R) (k : Fin K) :
    hiddenRows a b (ix2 p k) = max (a (ix2 p k) + b (ix2 (0 : Fin 1) k)) (Ideal.ofBits .f32 0x00000000#32) := rfl

/-- Each row by itself: equal rows and equal bias rows give equal results at those rows. -/
theorem hiddenRows_congr {R R' K : Nat} (a : (⟨2, ![R, K]⟩ : Shape).Idx → EReal) (b : (⟨2, ![1, K]⟩ : Shape).Idx → EReal)
    (a' : (⟨2, ![R', K]⟩ : Shape).Idx → EReal) (b' : (⟨2, ![1, K]⟩ : Shape).Idx → EReal) (p : Fin R) (p' : Fin R') (k : Fin K)
    (ha : a' (ix2 p' k) = a (ix2 p k)) (hb : b' (ix2 (0 : Fin 1) k) = b (ix2 (0 : Fin 1) k)) :
    hiddenRows a' b' (ix2 p' k) = hiddenRows a b (ix2 p k) := by
  rw [hiddenRows_apply, hiddenRows_apply, ha, hb]

end Cert.Dense

end
-- ==== Proof.SecondProduct.lean ====
/-
  The second dense layer, block by block and as a whole.

  The second kernel region walks the 50000 rows of the aggregated first layer in ten blocks of 5000. At a block it
  adds the bias row (kept as a 1 × 128 array) to every row, takes the maximum with zero, multiplies by the whole
  128 × 64 weight matrix into a zero accumulator and writes the 5000 product rows back. The bias and the maximum
  act on each row by itself and rows of a product are products of rows, so the result array ends holding
  `max (a + b, 0) · W2` of the whole arrays.
-/
import proofs.«136348_j64527588655436_2_alg».proof.Proof.Gen.KernelIdeal.Frame
import proofs.«136348_j64527588655436_2_alg».proof.Proof.LibRowsCols
import Idealize.ShloMosaic.Lib.Pipeline.Value
import Idealize.ShloMosaic.Lib.ValueIdx
import Idealize.ShloMosaic.PureOps.Ideal.Laws
import Idealize.ShloMosaic.Lib.ValueLayout
import proofs.«136348_j64527588655436_2_alg».proof.Proof.LibRowBias
set_option maxRecDepth 16384

noncomputable section

namespace Cert.KernelIdeal.Layers

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

theorem noOffsets : (![0, 0] : Fin 2 → Nat) = fun _ => 0 := funext fun a => by fin_cases a <;> rfl

/-- The body's value before the product, as the program spells it. -/
def beforeProduct (x0 : Vec Ideal S5000x128 .f32) (x2 : Vec Ideal S1x128 .f32) : FVec Ideal S5000x128 .f32 :=
  maximumf (addf (shapeCast S5000x128 x0 shapeCasts_S5000x128_S5000x128)
      (broadcastTo S5000x128 (shapeCast S1x128 x2 shapeCasts_S1x128_S1x128) broadcasts_S1x128_S5000x128))
    (broadcast S5000x128 (Scalar.ofBits (F := Ideal) .f32 0x00000000#32))

/-- It is the bias added to every row and the maximum with zero. -/
theorem beforeProduct_eq (x0 : Vec Ideal S5000x128 .f32) (x2 : Vec Ideal S1x128 .f32) :
    beforeProduct x0 x2 = hiddenRows (R := 5000) (K := 128) x0 x2 := by
  funext i
  unfold beforeProduct
  rw [shapeCast_self, shapeCast_self]
  show max (x0 i + broadcastTo S5000x128 x2 broadcasts_S1x128_S5000x128 i) _ = _
  rw [broadcastTo_apply x2 broadcasts_S1x128_S5000x128 i (ix2 (0 : Fin 1) (i 1 : Fin 128))
    (fun a => by match a with | ⟨0, _⟩ => rfl | ⟨1, _⟩ => rfl)]
  rfl

/-- The second region's contraction record is "rows times columns" too. -/
theorem secondRecord : RowsCols (R := 5000) (K := 128) (N := 64) dot_S5000x128_S128x64_S5000x64_1_0_0_1_n_n :=
  ⟨rfl, rfl, fun _ _ => rfl, fun _ _ => rfl, fun _ _ => rfl, fun _ _ => rfl⟩

/-- What the body stores, at an entry. -/
theorem secondPayload_apply (x0 : Vec Ideal S5000x128 .f32) (x2 : Vec Ideal S1x128 .f32) (x9 : Vec Ideal S128x64 .f32)
    (j : S5000x64.Idx) :
    k1_pay1 (F := Ideal) x0 x2 x9 j = rowsTimes (M := 5000) (K := 128) (N := 64) (hiddenRows (R := 5000) (K := 128) x0 x2) x9 j := by
  have e : k1_pay1 (F := Ideal) x0 x2 x9 j
      = FloatOps.matmul dot_S5000x128_S128x64_S5000x64_1_0_0_1_n_n none (φ₁ := .bf16) (φ₂ := .bf16) (beforeProduct x0 x2) x9
          (constant (F := Ideal) S5000x64 .f32 0x00000000#32) j := rfl
  rw [e, beforeProduct_eq]
  exact matmul_zero_apply (φ₁ := .bf16) (φ₂ := .bf16) secondRecord none (hiddenRows (R := 5000) (K := 128) x0 x2) x9 j

/-- How the four windows' block indices relate, decided once over the ten grid points. -/
theorem secondIndexFacts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 9 :=
  (by decide +kernel : ∀ t : Fin grid1.N, _)

/-- Every one of the ten row blocks is some grid point's. -/
theorem secondIndexOnto : ∀ q : Fin 10, ∃ t : Fin cfg1.N, win1_3.index t = ![q.val, 0] :=
  (by decide +kernel : ∀ q : Fin 10, ∃ t : Fin grid1.N, win1_3.index t = ![q.val, 0])

/-- The whole array the region computes, as one function of the arrays it finds. -/
abbrev secondProduct (c : Dev nD) : S50000x64.Idx → EReal :=
  rowsTimes (M := 50000) (K := 128) (N := 64) (hiddenRows (R := 50000) (K := 128) (V c main_v46) (V c main_v47)) (V c main_arg5)

/-- What grid point `t` writes back is block `t` of that array. -/
theorem secondFlushed (c : Dev nD) (t : Fin cfg1.N) :
    (dat1 V c).flushed 3 t = ((cfg1.win 3).blk t).view.read (Elt Ideal) (secondProduct V c) := by
  show (cfg1.win 3).cut (grid1.coords t) ((dat1 V c).after 3 t) = _
  rw [after1_3]
  unfold out1_3
  rw [View.canon_unit_zero noOffsets]
  simp only [View.ld_unit_zero (S := S5000x128) noOffsets, View.ld_unit_zero (S := S1x128) noOffsets,
    View.ld_unit_zero (S := S128x64) noOffsets]
  obtain ⟨e0, e1, e2, e3, e4, e5, e6, e7⟩ := secondIndexFacts t
  funext j
  show k1_pay1 (F := Ideal) (iblk1 V c 0 t) (iblk1 V c 1 t) (iblk1 V c 2 t) j = secondProduct V c (((cfg1.win 3).blk t).view.emb j)
  refine (secondPayload_apply (iblk1 V c 0 t) (iblk1 V c 1 t) (iblk1 V c 2 t) j).trans ?_
  refine rowsTimes_of_rows (M := 50000) (R := 5000) (K := 128) (N := 64) (N' := 64)
    (hiddenRows (R := 50000) (K := 128) (V c main_v46) (V c main_v47)) (V c main_arg5)
    (hiddenRows (R := 5000) (K := 128) (iblk1 V c 0 t) (iblk1 V c 1 t)) (iblk1 V c 2 t) j (((cfg1.win 3).blk t).view.emb j) (fun k => ?_) (fun k => ?_)
  · have ea : iblk1 V c 0 t (ix2 (j 0) k) = V c main_v46 (ix2 ((((cfg1.win 3).blk t).view.emb j) 0) k) := by
      show V c main_v46 (((cfg1.win 0).blk t).view.emb (ix2 (j 0) k)) = _
      refine congrArg (V c main_v46) ?_
      funext a; apply Fin.ext
      match a with
      | ⟨0, _⟩ => show win1_0.index t (0 : Fin 2) * 5000 + 1 * (j 0).val = win1_3.index t (0 : Fin 2) * 5000 + 1 * (j 0).val; omega
      | ⟨1, _⟩ => show win1_0.index t (1 : Fin 2) * 128 + 1 * k.val = k.val; omega
    have eb : iblk1 V c 1 t (ix2 (0 : Fin 1) k) = V c main_v47 (ix2 (0 : Fin 1) k) := by
      show V c main_v47 (((cfg1.win 1).blk t).view.emb (ix2 (0 : Fin 1) k)) = _
      refine congrArg (V c main_v47) ?_
      funext a; apply Fin.ext
      match a with
      | ⟨0, _⟩ => show win1_1.index t (0 : Fin 2) * 1 + 1 * 0 = 0; omega
      | ⟨1, _⟩ => show win1_1.index t (1 : Fin 2) * 128 + 1 * k.val = k.val; omega
    exact hiddenRows_congr (R := 50000) (R' := 5000) (K := 128) (V c main_v46) (V c main_v47) (iblk1 V c 0 t) (iblk1 V c 1 t)
      ((((cfg1.win 3).blk t).view.emb j) 0) (j 0) k ea eb
  · show V c main_arg5 (((cfg1.win 2).blk t).view.emb (ix2 k (j 1))) = V c main_arg5 (ix2 k ((((cfg1.win 3).blk t).view.emb j) 1))
    refine congrArg (V c main_arg5) ?_
    funext a; apply Fin.ext
    match a with
    | ⟨0, _⟩ => show win1_2.index t (0 : Fin 2) * 128 + 1 * k.val = k.val; omega
    | ⟨1, _⟩ => show win1_2.index t (1 : Fin 2) * 64 + 1 * (j 1).val = win1_3.index t (1 : Fin 2) * 64 + 1 * (j 1).val; omega

/-- An index of the result array is in point `t`'s block iff each coordinate is in the block's range. -/
theorem secondMemBlock (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v48).slice (win1_3.rect t)).set ↔ _
  rw [View.set_slice_whole, Rect.mem_set_unit]
  exact Iff.rfl

/-- The ten row blocks tile the result. -/
theorem secondCover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := secondIndexOnto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [secondMemBlock]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The result array after the region is that whole array. -/
theorem secondFinal (c : Dev nD) : (dat1 V c).arrAt 3 cfg1.N = secondProduct V c :=
  (dat1 V c).arrAt_eq_of_cover 3 (secondProduct V c) (fun t _ => secondFlushed V c t) secondCover

end Cert.KernelIdeal.Layers

end
-- ==== Proof.RefLayers.lean ====
/-
  The reference as two graph-convolution layers.

  Write `src`, `dst` for the edge lists with one self loop per node appended, `w` for the edge weights with a one
  per self loop, `deg` for the sum of `w` into the destination nodes, `dinv = deg^(-1/2)` where `deg > 0` and `0`
  elsewhere, and `norm e = dinv (src e) · w e · dinv (dst e)`. A layer takes a dense array `h` of one row per node,
  gathers the row `h (src e)` for every edge, scales it by `norm e`, and adds it into row `dst e` of a zero array
  (`spreadWide` for 128 columns, `spreadNarrow` for 64). The reference's result is

      spreadNarrow (max (spreadWide (x · W1) + b1, 0) · W2) + b2 .

  Everything that depends only on the edges — the index arrays and `norm` — stays closed inside the reference's own
  stage functions: both programs compute it by the same operations, so it is never opened. What is opened is the two
  dense products (the host's contraction is the plain sum over k) and the bias-and-maximum between them.
-/
import proofs.«136348_j64527588655436_2_alg».proof.Proof.Gen.ReferenceIdeal.Read
import proofs.«136348_j64527588655436_2_alg».proof.Proof.LibRowsCols
import proofs.«136348_j64527588655436_2_alg».proof.Proof.LibRowBias
import Idealize.ShloMosaic.Lib.Pipeline.Value
import Idealize.ShloMosaic.Lib.ValueIdx
import Idealize.ShloMosaic.PureOps.Ideal.Laws

set_option maxRecDepth 16384

noncomputable section

namespace Cert.ReferenceIdeal.Layers

open Idealize.ShloMosaic Idealize.ShloMosaic.TcCoe Idealize.ShloMosaic.ValueIdx Idealize.SL.Sem
open Cert.ReferenceIdeal Cert.ReferenceIdeal.Gen Cert.ReferenceIdeal.Read Cert.Dense

/-- The edge list, and the edge weights. -/
abbrev Edges := (⟨S2x800000, .i32⟩ : BufTy).Contents (Elt Ideal)
abbrev EdgeWeights := FVec Ideal S800000 .f32

/-- One layer's aggregation over 128 columns: rows of `h` gathered at the sources, scaled by `norm`, added into the
    destination rows of a zero array. -/
def spreadWide (h : FVec Ideal S50000x128 .f32) (x1 : Edges) (x2 : EdgeWeights) : FVec Ideal S50000x128 .f32 :=
  Host.scatterAdd (F := Ideal) scatter_S50000x128_S850000x1_S850000x128_1_0_0_1 (val_main_v43 (F := Ideal)) (val_main_v44 (F := Ideal) x1)
    (mulf (F := Ideal) (val_main_v41 (F := Ideal) x1 x2)
      (Host.gather gather_S50000x128_S850000x1_S850000x128_1_0_n_n_0_1_1128 h (val_main_v39 (F := Ideal) x1)))

/-- The same over 64 columns. -/
def spreadNarrow (h : FVec Ideal S50000x64 .f32) (x1 : Edges) (x2 : EdgeWeights) : FVec Ideal S50000x64 .f32 :=
  Host.scatterAdd (F := Ideal) scatter_S50000x64_S850000x1_S850000x64_1_0_0_1 (val_main_v61 (F := Ideal)) (val_main_v62 (F := Ideal) x1)
    (mulf (F := Ideal) (val_main_v59 (F := Ideal) x1 x2)
      (Host.gather gather_S50000x64_S850000x1_S850000x64_1_0_n_n_0_1_164 h (val_main_v57 (F := Ideal) x1)))

variable (x0 : FVec Ideal S50000x128 .f32) (x1 : Edges) (x2 : EdgeWeights)
  (x3 : FVec Ideal S128x128 .f32) (x4 : FVec Ideal S128 .f32) (x5 : FVec Ideal S128x64 .f32) (x6 : FVec Ideal S64 .f32)

/-- THE RESULT both programs compute, as one function of the seven arguments. -/
def result : FVec Ideal S50000x64 .f32 :=
  addf (F := Ideal) (spreadNarrow
      (rowsTimes (M := 50000) (K := 128) (N := 64)
        (hiddenRows (R := 50000) (K := 128) (spreadWide (rowsTimes (M := 50000) (K := 128) (N := 128) x0 x3) x1 x2)
          (val_main_v46 (F := Ideal) x4)) x5) x1 x2)
    (val_main_v65 (F := Ideal) x6)

/-- The reference's last stage, with the two aggregations named. -/
theorem stages_eq :
    val_main_v66 (F := Ideal) x0 x1 x2 x3 x4 x5 x6
      = addf (F := Ideal) (spreadNarrow (Host.dotGeneral (F := Ideal) dot_S50000x128_S128x64_S50000x64_1_0_0_1_n_n none
            (maximumf (F := Ideal) (addf (F := Ideal) (spreadWide (Host.dotGeneral (F := Ideal) dot_S50000x128_S128x128_S50000x128_1_0_0_1_n_n none x0 x3) x1 x2)
              (val_main_v47 (F := Ideal) x4)) (val_main_call1_v0 (F := Ideal))) x5) x1 x2)
          (val_main_v65 (F := Ideal) x6) := rfl

/-- The reference's two contraction records are "rows times columns". -/
theorem wideRecord : RowsCols (R := 50000) (K := 128) (N := 128) dot_S50000x128_S128x128_S50000x128_1_0_0_1_n_n :=
  ⟨rfl, rfl, fun _ _ => rfl, fun _ _ => rfl, fun _ _ => rfl, fun _ _ => rfl⟩
theorem narrowRecord : RowsCols (R := 50000) (K := 128) (N := 64) dot_S50000x128_S128x64_S50000x64_1_0_0_1_n_n :=
  ⟨rfl, rfl, fun _ _ => rfl, fun _ _ => rfl, fun _ _ => rfl, fun _ _ => rfl⟩

/-- The bias broadcast down the rows and the maximum with the broadcast zero are `hiddenRows` of the bias kept as a
    one-row array. -/
theorem biasMax_eq (a : FVec Ideal S50000x128 .f32) :
    maximumf (F := Ideal) (addf (F := Ideal) a (val_main_v47 (F := Ideal) x4)) (val_main_call1_v0 (F := Ideal))
      = (hiddenRows (R := 50000) (K := 128) a (val_main_v46 (F := Ideal) x4) : FVec Ideal S50000x128 .f32) := by
  funext i
  obtain ⟨p, k, rfl⟩ : ∃ (p : Fin 50000) (k : Fin 128), i = ix2 p k := ⟨i 0, i 1, eq_ix2 i⟩
  rw [hiddenRows_apply, maximumf_apply, addf_apply, val_main_v47_apply, val_main_call1_v0_apply, val_main_call1_cst_apply]
  have e : idx_main_v47 (ix2 p k) = ix2 (0 : Fin 1) k := funext fun a => Fin.ext (by match a with | ⟨0, _⟩ => rfl | ⟨1, _⟩ => rfl)
  rw [e]
  rfl

/-- The reference's result is `result`. -/
theorem reference_eq : val_main_v66 (F := Ideal) x0 x1 x2 x3 x4 x5 x6 = result x0 x1 x2 x3 x4 x5 x6 := by
  rw [stages_eq, dotGeneral_eq wideRecord none (φ₁ := .f32) (φ₂ := .f32) x0 x3, biasMax_eq,
    dotGeneral_eq narrowRecord none (φ₁ := .f32) (φ₂ := .f32)]
  rfl

end Cert.ReferenceIdeal.Layers

end
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.KernelValue.lean ====
/-
  The idealized kernel's result as a function of its arguments.

  Reading the contents at each boundary of @main back to the launch memory:
  * before the first region the host has computed, from the edge list and the edge weights only, the source and
    destination index arrays and `norm` — by the reference's own operations, so they ARE the reference's stage
    functions of those two arguments;
  * the first region leaves `x · W1` (the whole product: FirstProduct);
  * the stretch between the regions gathers its rows, scales them by `norm` and adds them into the destination rows
    (the reference's `spreadWide`; the widening cast after the gather is the identity), and keeps the bias as a one-row
    array;
  * the second region leaves `max (· + b1, 0) · W2` of that (SecondProduct);
  * the last stretch aggregates once more over 64 columns and adds `b2`.
  Together: the reference's `result` of the seven arguments.
-/
import proofs.«136348_j64527588655436_2_alg».proof.Proof.Gen.KernelIdeal.Frame
import proofs.«136348_j64527588655436_2_alg».proof.Proof.FirstProduct
import proofs.«136348_j64527588655436_2_alg».proof.Proof.SecondProduct
import proofs.«136348_j64527588655436_2_alg».proof.Proof.RefLayers
import proofs.«136348_j64527588655436_2_alg».proof.Proof.LibHostStretches
import Idealize.ShloMosaic.Lib.StableHlo.Run

set_option maxRecDepth 16384

noncomputable section

namespace Cert.KernelIdeal.Layers

open Idealize.ShloMosaic Idealize.ShloMosaic.TcCoe Idealize.ShloMosaic.ValueIdx Idealize.ShloMosaic.StableHlo
open Idealize.SL Idealize.SL.Sem
open Cert.KernelIdeal Cert.KernelIdeal.Gen Cert.Dense
open Cert.ReferenceIdeal.Read (val_main_v3 val_main_v6 val_main_v31 val_main_v46)
open Cert.ReferenceIdeal.Layers (Edges EdgeWeights spreadWide spreadNarrow result)

variable (m : (ℓ : Loc nD τ sig) → Buf (Elt Ideal) ℓ) (ρ : Dev nD → PrngReg) (c : Dev nD)

/-! ## The arguments as launched, typed as the reference types them -/

abbrev a0 : FVec Ideal Cert.ReferenceIdeal.S50000x128 .f32 := m ((c : Thread nD τ).loc main_arg0)
abbrev a1 : Edges := m ((c : Thread nD τ).loc main_arg1)
abbrev a2 : EdgeWeights := m ((c : Thread nD τ).loc main_arg2)
abbrev a3 : FVec Ideal Cert.ReferenceIdeal.S128x128 .f32 := m ((c : Thread nD τ).loc main_arg3)
abbrev a4 : FVec Ideal Cert.ReferenceIdeal.S128 .f32 := m ((c : Thread nD τ).loc main_arg4)
abbrev a5 : FVec Ideal Cert.ReferenceIdeal.S128x64 .f32 := m ((c : Thread nD τ).loc main_arg5)
abbrev a6 : FVec Ideal Cert.ReferenceIdeal.S64 .f32 := m ((c : Thread nD τ).loc main_arg6)

/-! ## At the first region's entry -/

theorem entry_arg0 : W3 m ρ c (Proc.devRef .tc main_arg0) = a0 m c := by
  show after hostOps0_2 (after hostOps0_1 (after hostOps0 (W0 m ρ c))) (Proc.devRef .tc main_arg0) = _
  after_results_simp <;> rfl
theorem entry_arg3 : W3 m ρ c (Proc.devRef .tc main_arg3) = a3 m c := by
  show after hostOps0_2 (after hostOps0_1 (after hostOps0 (W0 m ρ c))) (Proc.devRef .tc main_arg3) = _
  after_results_simp <;> rfl
theorem entry_arg4 : W3 m ρ c (Proc.devRef .tc main_arg4) = a4 m c := by
  show after hostOps0_2 (after hostOps0_1 (after hostOps0 (W0 m ρ c))) (Proc.devRef .tc main_arg4) = _
  after_results_simp <;> rfl
theorem entry_arg5 : W3 m ρ c (Proc.devRef .tc main_arg5) = a5 m c := by
  show after hostOps0_2 (after hostOps0_1 (after hostOps0 (W0 m ρ c))) (Proc.devRef .tc main_arg5) = _
  after_results_simp <;> rfl
theorem entry_arg6 : W3 m ρ c (Proc.devRef .tc main_arg6) = a6 m c := by
  show after hostOps0_2 (after hostOps0_1 (after hostOps0 (W0 m ρ c))) (Proc.devRef .tc main_arg6) = _
  after_results_simp <;> rfl

/-- The sources with the self loops appended: the reference's stage of the edge list. -/
theorem entry_src : W3 m ρ c (Proc.devRef .tc main_v3) = val_main_v3 (F := Ideal) (a1 m c) := by
  show after hostOps0_2 (after hostOps0_1 (after hostOps0 (W0 m ρ c))) (Proc.devRef .tc main_v3) = _
  after_results_simp <;> rfl
/-- The destinations with the self loops appended. -/
theorem entry_dst : W3 m ρ c (Proc.devRef .tc main_v6) = val_main_v6 (F := Ideal) (a1 m c) := by
  show after hostOps0_2 (after hostOps0_1 (after hostOps0 (W0 m ρ c))) (Proc.devRef .tc main_v6) = _
  after_results_simp <;> rfl
/-! ### `norm`, one stretch at a time

Each stretch is read from an arbitrary valuation `U` of the buffers, given what `U` holds at the buffers the stretch
reads. -/

section Stretches

open Cert.ReferenceIdeal.Read (val_main_v8 val_main_v13 val_main_v14 val_main_v15 val_main_cst_2)

variable (U : Valuation τ sig (Elt Ideal)) (x1 : Edges) (x2 : EdgeWeights)

/-- The weights with a one per self loop. -/
theorem first_weights (h2 : U (Proc.devRef .tc main_arg2) = x2) :
    after hostOps0 U (Proc.devRef .tc main_v8) = val_main_v8 (F := Ideal) x2 := by
  after_results; rw [h2]; rfl
theorem first_src (h1 : U (Proc.devRef .tc main_arg1) = x1) :
    after hostOps0 U (Proc.devRef .tc main_v3) = val_main_v3 (F := Ideal) x1 := by
  after_results; rw [h1]; rfl
theorem first_dst (h1 : U (Proc.devRef .tc main_arg1) = x1) :
    after hostOps0 U (Proc.devRef .tc main_v6) = val_main_v6 (F := Ideal) x1 := by
  after_results; rw [h1]; rfl
/-- Where the weighted in-degree is positive. -/
theorem first_positive (h1 : U (Proc.devRef .tc main_arg1) = x1) (h2 : U (Proc.devRef .tc main_arg2) = x2) :
    after hostOps0 U (Proc.devRef .tc main_v13) = val_main_v13 (F := Ideal) x1 x2 := by
  after_results; rw [h1, h2]; rfl
/-- Its inverse square root. -/
theorem first_rsqrt (h1 : U (Proc.devRef .tc main_arg1) = x1) (h2 : U (Proc.devRef .tc main_arg2) = x2) :
    after hostOps0 U (Proc.devRef .tc main_v14) = val_main_v14 (F := Ideal) x1 x2 := by
  after_results; rw [h1, h2]; rfl
theorem first_zero : after hostOps0 U (Proc.devRef .tc main_cst_2) = val_main_cst_2 (F := Ideal) := by
  after_results <;> rfl

/-- `dinv`: the inverse square root where the degree is positive, zero elsewhere. -/
theorem call_dinv (h13 : U (Proc.devRef .tc main_v13) = val_main_v13 (F := Ideal) x1 x2)
    (h14 : U (Proc.devRef .tc main_v14) = val_main_v14 (F := Ideal) x1 x2)
    (hz : U (Proc.devRef .tc main_cst_2) = val_main_cst_2 (F := Ideal)) :
    after hostOps0_1 U (Proc.devRef .tc main_v15) = val_main_v15 (F := Ideal) x1 x2 := by
  after_results_simp
  simp only [Cert.HostLine.ofBuf_toBuf]
  -- the call reads its operands and writes its result through typed references: transports along each buffer's
  -- type equation, which change nothing
  have e13 : (TRef.of (T := ⟨S50000, .i1⟩) main_v13).ofBuf (U (Proc.devRef .tc main_v13)) = val_main_v13 (F := Ideal) x1 x2 :=
    eq_of_heq ((cast_heq _ _).trans (heq_of_eq h13))
  have e14 : (TRef.of (T := ⟨S50000, .f32⟩) main_v14).ofBuf (U (Proc.devRef .tc main_v14)) = val_main_v14 (F := Ideal) x1 x2 :=
    eq_of_heq ((cast_heq _ _).trans (heq_of_eq h14))
  have ez : (TRef.of (T := ⟨S_, .f32⟩) main_cst_2).ofBuf (U (Proc.devRef .tc main_cst_2)) = val_main_cst_2 (F := Ideal) :=
    eq_of_heq ((cast_heq _ _).trans (heq_of_eq hz))
  refine eq_of_heq ((cast_heq _ _).trans (heq_of_eq ?_))
  rw [e13, e14, ez]
  rfl
theorem call_keeps_src : after hostOps0_1 U (Proc.devRef .tc main_v3) = U (Proc.devRef .tc main_v3) := by
  after_results_simp
theorem call_keeps_dst : after hostOps0_1 U (Proc.devRef .tc main_v6) = U (Proc.devRef .tc main_v6) := by
  after_results_simp
theorem call_keeps_weights : after hostOps0_1 U (Proc.devRef .tc main_v8) = U (Proc.devRef .tc main_v8) := by
  after_results_simp

/-- `norm e = dinv (src e) · w e · dinv (dst e)`. -/
theorem last_norm (h15 : U (Proc.devRef .tc main_v15) = val_main_v15 (F := Ideal) x1 x2)
    (h3 : U (Proc.devRef .tc main_v3) = val_main_v3 (F := Ideal) x1)
    (h6 : U (Proc.devRef .tc main_v6) = val_main_v6 (F := Ideal) x1)
    (h8 : U (Proc.devRef .tc main_v8) = val_main_v8 (F := Ideal) x2) :
    after hostOps0_2 U (Proc.devRef .tc main_v31) = val_main_v31 (F := Ideal) x1 x2 := by
  after_results_simp; rw [h15, h3, h6, h8]; rfl

end Stretches

/-- `norm` at the first region's entry: the reference's stage of the edge list and the edge weights. -/
theorem entry_norm : W3 m ρ c (Proc.devRef .tc main_v31) = val_main_v31 (F := Ideal) (a1 m c) (a2 m c) :=
  last_norm (W2 m ρ c) (a1 m c) (a2 m c)
    (call_dinv (W1 m ρ c) (a1 m c) (a2 m c) (first_positive (W0 m ρ c) _ _ rfl rfl) (first_rsqrt (W0 m ρ c) _ _ rfl rfl)
      (first_zero (W0 m ρ c)))
    ((call_keeps_src (W1 m ρ c)).trans (first_src (W0 m ρ c) _ rfl))
    ((call_keeps_dst (W1 m ρ c)).trans (first_dst (W0 m ρ c) _ rfl))
    ((call_keeps_weights (W1 m ρ c)).trans (first_weights (W0 m ρ c) _ rfl))

/-! ## Through the first region -/

theorem mid_src : W4 m ρ c (Proc.devRef .tc main_v3) = val_main_v3 (F := Ideal) (a1 m c) :=
  (W4_of_ne m ρ c main_v3 (by decide)).trans (entry_src m ρ c)
theorem mid_dst : W4 m ρ c (Proc.devRef .tc main_v6) = val_main_v6 (F := Ideal) (a1 m c) :=
  (W4_of_ne m ρ c main_v6 (by decide)).trans (entry_dst m ρ c)
theorem mid_norm : W4 m ρ c (Proc.devRef .tc main_v31) = val_main_v31 (F := Ideal) (a1 m c) (a2 m c) :=
  (W4_of_ne m ρ c main_v31 (by decide)).trans (entry_norm m ρ c)
theorem mid_arg4 : W4 m ρ c (Proc.devRef .tc main_arg4) = a4 m c :=
  (W4_of_ne m ρ c main_arg4 (by decide)).trans (entry_arg4 m ρ c)
theorem mid_arg5 : W4 m ρ c (Proc.devRef .tc main_arg5) = a5 m c :=
  (W4_of_ne m ρ c main_arg5 (by decide)).trans (entry_arg5 m ρ c)
theorem mid_arg6 : W4 m ρ c (Proc.devRef .tc main_arg6) = a6 m c :=
  (W4_of_ne m ρ c main_arg6 (by decide)).trans (entry_arg6 m ρ c)

/-- The first region leaves the whole product `x · W1`. -/
theorem first_result : W4 m ρ c (Proc.devRef .tc main_v32)
    = (rowsTimes (M := 50000) (K := 128) (N := 128) (a0 m c) (a3 m c) : FVec Ideal Cert.ReferenceIdeal.S50000x128 .f32) :=
  (W4_arr m ρ c 2).trans ((firstFinal (V3 m ρ) c).trans
    (congrArg₂ (rowsTimes (M := 50000) (K := 128) (N := 128)) (entry_arg0 m ρ c) (entry_arg3 m ρ c)))

/-! ## The stretch between the regions -/

theorem second_entry_src : W5 m ρ c (Proc.devRef .tc main_v3) = val_main_v3 (F := Ideal) (a1 m c) := by
  show after hostOps1 (W4 m ρ c) (Proc.devRef .tc main_v3) = _
  after_results_simp
  exact mid_src m ρ c
theorem second_entry_dst : W5 m ρ c (Proc.devRef .tc main_v6) = val_main_v6 (F := Ideal) (a1 m c) := by
  show after hostOps1 (W4 m ρ c) (Proc.devRef .tc main_v6) = _
  after_results_simp
  exact mid_dst m ρ c
theorem second_entry_norm : W5 m ρ c (Proc.devRef .tc main_v31) = val_main_v31 (F := Ideal) (a1 m c) (a2 m c) := by
  show after hostOps1 (W4 m ρ c) (Proc.devRef .tc main_v31) = _
  after_results_simp
  exact mid_norm m ρ c
theorem second_entry_arg5 : W5 m ρ c (Proc.devRef .tc main_arg5) = a5 m c := by
  show after hostOps1 (W4 m ρ c) (Proc.devRef .tc main_arg5) = _
  after_results_simp
  exact mid_arg5 m ρ c
theorem second_entry_arg6 : W5 m ρ c (Proc.devRef .tc main_arg6) = a6 m c := by
  show after hostOps1 (W4 m ρ c) (Proc.devRef .tc main_arg6) = _
  after_results_simp
  exact mid_arg6 m ρ c

/-- The second region's rows: the first product gathered at the sources, scaled by `norm`, added into the destination
    rows (the widening cast after the gather is the identity on the extended reals). -/
theorem second_entry_rows : W5 m ρ c (Proc.devRef .tc main_v46)
    = spreadWide (rowsTimes (M := 50000) (K := 128) (N := 128) (a0 m c) (a3 m c)) (a1 m c) (a2 m c) := by
  show after hostOps1 (W4 m ρ c) (Proc.devRef .tc main_v46) = _
  after_results_simp
  rw [mid_norm m ρ c, mid_src m ρ c, mid_dst m ρ c, first_result m ρ c]
  rfl

/-- The bias reshaped to one row is the bias broadcast to one row: both hold the bias entry k at (0, k). -/
theorem biasRow_eq (x4 : FVec Ideal S128 .f32) :
    (shapeCast S1x128 x4 shapeCasts_S128_S1x128 : FVec Ideal S1x128 .f32) = val_main_v46 (F := Ideal) x4 := by
  funext i
  rw [Cert.ReferenceIdeal.Read.val_main_v46_apply]
  refine shapeCast_apply x4 shapeCasts_S128_S1x128 i (Cert.ReferenceIdeal.Read.idx_main_v46 i) ?_
  rw [Shape.rowMajor_val_one, Shape.rowMajor_val_two]
  have h0 : (i 0).val < 1 := (i 0).isLt
  show (i 1).val = (i 0).val * 128 + (i 1).val
  omega

theorem second_entry_bias : W5 m ρ c (Proc.devRef .tc main_v47) = val_main_v46 (F := Ideal) (a4 m c) := by
  show after hostOps1 (W4 m ρ c) (Proc.devRef .tc main_v47) = _
  after_results_simp
  rw [mid_arg4 m ρ c]
  exact biasRow_eq (a4 m c)

/-! ## Through the second region -/

theorem late_src : W6 m ρ c (Proc.devRef .tc main_v3) = val_main_v3 (F := Ideal) (a1 m c) :=
  (W6_of_ne m ρ c main_v3 (by decide)).trans (second_entry_src m ρ c)
theorem late_dst : W6 m ρ c (Proc.devRef .tc main_v6) = val_main_v6 (F := Ideal) (a1 m c) :=
  (W6_of_ne m ρ c main_v6 (by decide)).trans (second_entry_dst m ρ c)
theorem late_norm : W6 m ρ c (Proc.devRef .tc main_v31) = val_main_v31 (F := Ideal) (a1 m c) (a2 m c) :=
  (W6_of_ne m ρ c main_v31 (by decide)).trans (second_entry_norm m ρ c)
theorem late_arg6 : W6 m ρ c (Proc.devRef .tc main_arg6) = a6 m c :=
  (W6_of_ne m ρ c main_arg6 (by decide)).trans (second_entry_arg6 m ρ c)

/-- The second region leaves `max (· + b1, 0) · W2` of the aggregated first layer. -/
theorem second_result : W6 m ρ c (Proc.devRef .tc main_v48)
    = (rowsTimes (M := 50000) (K := 128) (N := 64)
        (hiddenRows (R := 50000) (K := 128)
          (spreadWide (rowsTimes (M := 50000) (K := 128) (N := 128) (a0 m c) (a3 m c)) (a1 m c) (a2 m c))
          (val_main_v46 (F := Ideal) (a4 m c))) (a5 m c) : FVec Ideal Cert.ReferenceIdeal.S50000x64 .f32) :=
  (W6_arr m ρ c 3).trans ((secondFinal (V5 m ρ) c).trans
    (congrArg₂ (rowsTimes (M := 50000) (K := 128) (N := 64))
      (congrArg₂ (hiddenRows (R := 50000) (K := 128)) (second_entry_rows m ρ c) (second_entry_bias m ρ c))
      (second_entry_arg5 m ρ c)))

/-! ## The last stretch -/

/-- THE KERNEL'S RESULT is the reference's `result` of the seven arguments as launched. -/
theorem kernel_result : W7 m ρ c (Proc.devRef .tc main_v65)
    = result (a0 m c) (a1 m c) (a2 m c) (a3 m c) (a4 m c) (a5 m c) (a6 m c) := by
  show after hostOps2 (W6 m ρ c) (Proc.devRef .tc main_v65) = _
  after_results_simp
  rw [late_norm m ρ c, late_src m ρ c, late_dst m ρ c, late_arg6 m ρ c, second_result m ρ c]
  rfl

end Cert.KernelIdeal.Layers

end
-- ==== Proof.lean ====
/-
  Two graph-convolution layers: the kernel against the plain reference, on the extended reals.

  Both programs compute, from the node features `x`, the edge list, the edge weights and the two layers' weights and
  biases,

      out = A · (max (A · (x · W1) + b1, 0) · W2) + b2 ,

  where `A ·` gathers a row per edge at its source node, scales it by the symmetric normalisation
  `norm e = dinv (src e) · w e · dinv (dst e)` and adds it into the row of its destination node (self loops of weight
  one appended). Everything about the edges is computed by the same host operations in both programs. They differ in
  the dense steps only: the reference uses the host's contraction, its bias broadcast and its maximum with zero; the
  kernel computes `x · W1` in one region and `max (· + b1, 0) · W2` in a second one, each ten blocks of 5000 rows at a
  time, with narrowing and widening casts around them. On the extended reals the casts are the identity, a product into
  a zero accumulator is the plain sum over k, and rows of a product are products of rows — so the two results are one
  function of the arguments, sum for sum in the same order, and no finiteness of the inputs is used.

  The three frames are the generated ones (the reference's is its generated run with the result dropped); the
  idealization rewrote nothing, so `preserves` is trivial; `algebraic` puts the kernel's run with its result named
  (KernelRun, KernelValue) beside the reference's generated run (RefLayers).
-/
import proofs.«136348_j64527588655436_2_alg».proof.Defs
import proofs.«136348_j64527588655436_2_alg».proof.Proof.Gen.Kernel
import proofs.«136348_j64527588655436_2_alg».proof.Proof.Gen.Kernel.Skeleton
import proofs.«136348_j64527588655436_2_alg».proof.Proof.Gen.Kernel.Launch
import proofs.«136348_j64527588655436_2_alg».proof.Proof.Gen.Kernel.Points
import proofs.«136348_j64527588655436_2_alg».proof.Proof.Gen.Kernel.Frame
import proofs.«136348_j64527588655436_2_alg».proof.Proof.Gen.KernelIdeal
import proofs.«136348_j64527588655436_2_alg».proof.Proof.Gen.KernelIdeal.Skeleton
import proofs.«136348_j64527588655436_2_alg».proof.Proof.Gen.KernelIdeal.Launch
import proofs.«136348_j64527588655436_2_alg».proof.Proof.Gen.KernelIdeal.Points
import proofs.«136348_j64527588655436_2_alg».proof.Proof.Gen.KernelIdeal.Frame
import proofs.«136348_j64527588655436_2_alg».proof.Proof.Gen.ReferenceIdeal
import proofs.«136348_j64527588655436_2_alg».proof.Proof.Gen.Pre_finite_inputs
import proofs.«136348_j64527588655436_2_alg».proof.Proof.Gen.ReferenceIdeal.Run
import proofs.«136348_j64527588655436_2_alg».proof.Proof.Gen.ReferenceIdeal.Read
import proofs.«136348_j64527588655436_2_alg».proof.Proof.KernelRun
import proofs.«136348_j64527588655436_2_alg».proof.Proof.KernelValue
import proofs.«136348_j64527588655436_2_alg».proof.Proof.RefLayers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result: the kernel's is `result` of its
    arguments (KernelValue), the reference's is `result` of its own (RefLayers), and the arguments agree. -/
theorem algebraic : Cert.algebraic_KernelIdeal_ReferenceIdeal := by
  intro m ρ m' ρ' _ hagree
  refine ⟨fun c => Cert.KernelIdeal.Gen.W7 m ρ c (Proc.devRef .tc Cert.KernelIdeal.main_v65),
    Cert.KernelIdeal.Layers.run_result m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v66 m' c = Cert.KernelIdeal.Gen.W7 m ρ c (Proc.devRef .tc Cert.KernelIdeal.main_v65)
  rw [Cert.ReferenceIdeal.Read.val_main_v66_eq, Cert.ReferenceIdeal.Layers.reference_eq, Cert.KernelIdeal.Layers.kernel_result]
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
